-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x256 .f32) (main_arg1 : IVec S2x1600000 32) (main_arg2 : FVec F S256x128 .f32) (main_arg3 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x128 : Shape := ⟨2, ![100000, 128]⟩
abbrev S5000x256 : Shape := ⟨2, ![5000, 256]⟩
abbrev S5000x1 : Shape := ⟨2, ![5000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 45
  | .vmem => 14
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000x128, .f32⟩
  | .hbm, ⟨39, _⟩ => ⟨S_, .f32⟩
  | .hbm, ⟨40, _⟩ => ⟨S100000x128, .f32⟩
  | .hbm, ⟨41, _⟩ => ⟨S1700000x1, .i32⟩
  | .hbm, ⟨42, _⟩ => ⟨S100000x128, .f32⟩
  | .hbm, ⟨43, _⟩ => ⟨S1x128, .f32⟩
  | .hbm, ⟨44, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_v49 : Ref sig .tc := ⟨.hbm, 69, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Region0.lean ====
/-
  The first kernel (a block of rows of `x` times `w`, each row then scaled) as ONE function of the arrays it is entered with.

  The kernel runs over 20 row blocks of 5000 rows. At block `t` it reads rows `5000 t … 5000 t + 4999` of `x : [100000, 256]`
  and of the column `d2 : [100000, 1]`, the whole of `w : [256, 128]`, multiplies the row block by `w` into a zero accumulator
  (the change of float format before the product is the identity on extended reals) and scales row `r` of the product by
  `d2[r, 0]`. Element `(r, c)` of the result is therefore `(∑ k, x[r, k] · w[k, c]) · d2[r, 0]`, and since the 20 blocks
  tile the result the array after the run is `post x w d2` everywhere — whatever the three arrays hold at entry (`V`).
-/
import proofs.«125633_j60000693125427_2_alg».proof.Proof.Gen.KernelIdeal.Frame
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

/-- The result as a function of the three arrays: row `r` of `x` against column `c` of `w`, scaled by `d2[r, 0]`. -/
def post (x : (⟨S100000x256, .f32⟩ : BufTy).Contents (Elt Ideal)) (w : (⟨S256x128, .f32⟩ : BufTy).Contents (Elt Ideal))
    (d2 : (⟨S100000x1, .f32⟩ : BufTy).Contents (Elt Ideal)) : (⟨S100000x128, .f32⟩ : BufTy).Contents (Elt Ideal) :=
  fun i => (∑ k : Fin 256, x (ix2 (⟨(i 0).val, (i 0).isLt⟩ : Fin 100000) k) * w (ix2 k (⟨(i 1).val, (i 1).isLt⟩ : Fin 128)))
    * d2 (ix2 (⟨(i 0).val, (i 0).isLt⟩ : Fin 100000) (⟨0, Nat.one_pos⟩ : Fin 1))

theorem hz : (![0, 0] : Fin 2 → Nat) = fun _ => 0 := funext fun a => by fin_cases a <;> rfl

/-! ## The block product's operand indices: output `(r, c)` and contraction position `k` read `(r, k)` and `(k, c)` -/

theorem lhs_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The block product into a zero accumulator, read at `(r, c)`: the sum over `k` of `a[r, k] · b[k, c]`. -/
theorem matmul_zero_apply (a : FVec Ideal S5000x256 .bf16) (b : FVec Ideal S256x128 .bf16) (j : S5000x128.Idx) :
    matmul dot_S5000x256_S256x128_S5000x128_1_0_0_1_n_n none a b (constant S5000x128 .f32 0x00000000#32) j
      = ∑ k : Fin 256, a (ix2 (⟨(j 0).val, (j 0).isLt⟩ : Fin 5000) k) * b (ix2 k (⟨(j 1).val, (j 1).isLt⟩ : Fin 128)) := by
  simp only [matmul]
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx j ((ValueIdx.contrEquiv1 dot_S5000x256_S256x128_S5000x128_1_0_0_1_n_n 256 rfl rfl).symm k)
      = ix2 (⟨(j 0).val, (j 0).isLt⟩ : Fin 5000) k := funext fun a => Fin.ext (by
    match a with
    | ⟨0, _⟩ => exact lhs_0 _ _
    | ⟨1, _⟩ => exact (lhs_1 _ _).trans hk)
  have er : dot_S5000x256_S256x128_S5000x128_1_0_0_1_n_n.rhsIdx j ((ValueIdx.contrEquiv1 dot_S5000x256_S256x128_S5000x128_1_0_0_1_n_n 256 rfl rfl).symm k)
      = ix2 k (⟨(j 1).val, (j 1).isLt⟩ : Fin 128) := funext fun a => Fin.ext (by
    match a with
    | ⟨0, _⟩ => exact (rhs_0 _ _).trans hk
    | ⟨1, _⟩ => exact rhs_1 _ _)
  rw [el, er]

/-- The body's stored value at element `j` of the block, from the three loaded blocks. -/
theorem pay_apply (x0 : Vec Ideal S5000x256 .f32) (x1 : Vec Ideal S256x128 .f32) (x2 : Vec Ideal S5000x1 .f32) (j : S5000x128.Idx) :
    k0_pay1 x0 x1 x2 j
      = (∑ k : Fin 256, x0 (ix2 (⟨(j 0).val, (j 0).isLt⟩ : Fin 5000) k) * x1 (ix2 k (⟨(j 1).val, (j 1).isLt⟩ : Fin 128)))
        * x2 (ix2 (⟨(j 0).val, (j 0).isLt⟩ : Fin 5000) (⟨0, Nat.one_pos⟩ : Fin 1)) := by
  unfold k0_pay1
  simp only [shapeCast_self]
  rw [mulf_apply, matmul_zero_apply]
  rw [broadcastTo_apply x2 broadcasts_S5000x1_S5000x128 j (ix2 (⟨(j 0).val, (j 0).isLt⟩ : Fin 5000) (⟨0, Nat.one_pos⟩ : Fin 1))
      (fun a => by match a with
        | ⟨0, _⟩ => rfl
        | ⟨1, _⟩ => rfl)]
  rfl

/-- The printed index maps over the grid: block `t` of `x`, of the column and of the result is row block `t`; `w`'s block is
    always the whole of it. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- WHAT BLOCK `t` WRITES BACK is block `t` of `post` of the three arrays as the kernel finds them. -/
theorem flushed_eq (c : Dev nD) (t : Fin cfg0.N) :
    (dat0 V c).flushed 3 t = ((cfg0.win 3).blk t).view.read (Elt Ideal) (post (V c main_arg0) (V c main_arg2) (V c main_v17)) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x128) hz, View.ld_unit_zero (S := S5000x1) hz]
  obtain ⟨e00, e01, e10, e11, e20, e21, e30, e31⟩ := idx_facts t
  funext j
  show k0_pay1 (iblk0 V c 0 t) (iblk0 V c 1 t) (iblk0 V c 2 t) j
    = post (V c main_arg0) (V c main_arg2) (V c main_v17) (((cfg0.win 3).blk t).view.emb j)
  refine (pay_apply (iblk0 V c 0 t) (iblk0 V c 1 t) (iblk0 V c 2 t) j).trans ?_
  unfold post
  have hj0 : (j 0).val < 5000 := (j 0).isLt
  have hj1 : (j 1).val < 128 := (j 1).isLt
  have h0 : ∀ k : Fin 256, iblk0 V c 0 t (ix2 (⟨(j 0).val, (j 0).isLt⟩ : Fin 5000) k)
      = V c main_arg0 (ix2 (⟨((((cfg0.win 3).blk t).view.emb j) 0).val, ((((cfg0.win 3).blk t).view.emb j) 0).isLt⟩ : Fin 100000) k) := by
    intro k
    show V c main_arg0 (((cfg0.win 0).blk t).view.emb (ix2 (⟨(j 0).val, (j 0).isLt⟩ : Fin 5000) k)) = _
    refine congrArg (V c main_arg0) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 256 + 1 * k.val = k.val; omega
  have h1 : ∀ k : Fin 256, iblk0 V c 1 t (ix2 k (⟨(j 1).val, (j 1).isLt⟩ : Fin 128))
      = V c main_arg2 (ix2 k (⟨((((cfg0.win 3).blk t).view.emb j) 1).val, ((((cfg0.win 3).blk t).view.emb j) 1).isLt⟩ : Fin 128)) := by
    intro k
    show V c main_arg2 (((cfg0.win 1).blk t).view.emb (ix2 k (⟨(j 1).val, (j 1).isLt⟩ : Fin 128))) = _
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 128 + 1 * (j 1).val = win0_3.index t (1 : Fin 2) * 128 + 1 * (j 1).val; omega
  have h2 : iblk0 V c 2 t (ix2 (⟨(j 0).val, (j 0).isLt⟩ : Fin 5000) (⟨0, Nat.one_pos⟩ : Fin 1))
      = V c main_v17 (ix2 (⟨((((cfg0.win 3).blk t).view.emb j) 0).val, ((((cfg0.win 3).blk t).view.emb j) 0).isLt⟩ : Fin 100000) (⟨0, Nat.one_pos⟩ : Fin 1)) := by
    show V c main_v17 (((cfg0.win 2).blk t).view.emb (ix2 (⟨(j 0).val, (j 0).isLt⟩ : Fin 5000) (⟨0, Nat.one_pos⟩ : Fin 1))) = _
    refine congrArg (V c main_v17) (funext fun a => Fin.ext ?_)
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega
  rw [h2]
  exact congrArg (· * _) (Finset.sum_congr rfl fun k _ => by rw [h0 k, h1 k])

/-- An index of the result is in block `t` iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v18).slice (win0_3.rect t)).set ↔ _
  rw [View.set_slice_whole, Rect.mem_set_unit]
  exact Iff.rfl

/-- Row `r` of the result is in block `r / 5000`. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨_, _, _, _, _, _, e30, e31⟩ := idx_facts t
  have ht : t.val = (i 0).val / 5000 := rfl
  refine ⟨t, flush0_3 t, (mem_blk t i).mpr fun a => ?_⟩
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE RESULT ARRAY after the kernel: `post` of the three arrays as the kernel finds them. -/
theorem final (c : Dev nD) : (dat0 V c).arrAt 3 cfg0.N = post (V c main_arg0) (V c main_arg2) (V c main_v17) :=
  (dat0 V c).arrAt_eq_of_cover 3 _ (fun t _ => flushed_eq V c t) cover

end Cert.KernelIdeal.Region0

end
-- ==== Proof.Region1.lean ====
/-
  The second kernel (scale each row, add the bias row, clamp below at zero) as ONE function of the arrays it is entered with.

  The kernel runs over 20 row blocks of 5000 rows. At block `t` it reads rows `5000 t … 5000 t + 4999` of the
  aggregated array `agg : [100000, 128]` and of the column `d2 : [100000, 1]`, the whole bias row `b2 : [1, 128]`, and writes
  rows `5000 t …` of the result: element `(r, c)` is `max (agg[r, c] · d2[r, 0] + b2[0, c]) 0`. The 20 blocks tile the result,
  so after the run the result array is `post agg d2 b2` everywhere — whatever the three arrays hold when the kernel is
  entered (`V`), which is how the host operations before it are kept out of this file.
-/
import proofs.«125633_j60000693125427_2_alg».proof.Proof.Gen.KernelIdeal.Frame
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

/-- The result as a function of the three arrays: row `r` of `agg` scaled by `d2[r, 0]`, plus the bias row, clamped at zero. -/
def post (agg : (⟨S100000x128, .f32⟩ : BufTy).Contents (Elt Ideal)) (d2 : (⟨S100000x1, .f32⟩ : BufTy).Contents (Elt Ideal))
    (b2 : (⟨S1x128, .f32⟩ : BufTy).Contents (Elt Ideal)) : (⟨S100000x128, .f32⟩ : BufTy).Contents (Elt Ideal) :=
  fun i => max (agg i * d2 (ix2 (⟨(i 0).val, (i 0).isLt⟩ : Fin 100000) (⟨0, Nat.one_pos⟩ : Fin 1))
      + b2 (ix2 (⟨0, Nat.one_pos⟩ : Fin 1) (⟨(i 1).val, (i 1).isLt⟩ : Fin 128))) (Ideal.ofBits .f32 0x00000000#32)

theorem hz : (![0, 0] : Fin 2 → Nat) = fun _ => 0 := funext fun a => by fin_cases a <;> rfl

/-- The body's stored value at element `j` of the block, from the three loaded blocks. -/
theorem pay_apply (x0 : Vec Ideal S5000x128 .f32) (x1 : Vec Ideal S5000x1 .f32) (x2 : Vec Ideal S1x128 .f32) (j : S5000x128.Idx) :
    k1_pay1 x0 x1 x2 j
      = max (x0 j * x1 (ix2 (⟨(j 0).val, (j 0).isLt⟩ : Fin 5000) (⟨0, Nat.one_pos⟩ : Fin 1))
          + x2 (ix2 (⟨0, Nat.one_pos⟩ : Fin 1) (⟨(j 1).val, (j 1).isLt⟩ : Fin 128))) (Ideal.ofBits .f32 0x00000000#32) := by
  unfold k1_pay1
  simp only [shapeCast_self]
  rw [maximumf_apply, addf_apply, mulf_apply]
  rw [broadcastTo_apply x1 broadcasts_S5000x1_S5000x128 j (ix2 (⟨(j 0).val, (j 0).isLt⟩ : Fin 5000) (⟨0, Nat.one_pos⟩ : Fin 1))
      (fun a => by match a with
        | ⟨0, _⟩ => rfl
        | ⟨1, _⟩ => rfl),
    broadcastTo_apply x2 broadcasts_S1x128_S5000x128 j (ix2 (⟨0, Nat.one_pos⟩ : Fin 1) (⟨(j 1).val, (j 1).isLt⟩ : Fin 128))
      (fun a => by match a with
        | ⟨0, _⟩ => rfl
        | ⟨1, _⟩ => rfl)]
  rfl

/-- The printed index maps over the grid: block `t` of the aggregated array, of the column and of the result is row block
    `t`; the bias row's block is always the whole row. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- WHAT BLOCK `t` WRITES BACK is block `t` of `post` of the three arrays as the kernel finds them. -/
theorem flushed_eq (c : Dev nD) (t : Fin cfg1.N) :
    (dat1 V c).flushed 3 t = ((cfg1.win 3).blk t).view.read (Elt Ideal) (post (V c main_v28) (V c main_v17) (V c main_v29)) := by
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz, View.ld_unit_zero (S := S1x128) hz]
  obtain ⟨e00, e01, e10, e11, e20, e21, e30, e31⟩ := idx_facts t
  funext j
  show k1_pay1 (iblk1 V c 0 t) (iblk1 V c 1 t) (iblk1 V c 2 t) j
    = post (V c main_v28) (V c main_v17) (V c main_v29) (((cfg1.win 3).blk t).view.emb j)
  refine (pay_apply (iblk1 V c 0 t) (iblk1 V c 1 t) (iblk1 V c 2 t) j).trans ?_
  unfold post
  have hj0 : (j 0).val < 5000 := (j 0).isLt
  have hj1 : (j 1).val < 128 := (j 1).isLt
  have h0 : iblk1 V c 0 t j = V c main_v28 (((cfg1.win 3).blk t).view.emb j) := by
    show V c main_v28 (((cfg1.win 0).blk t).view.emb j) = V c main_v28 (((cfg1.win 3).blk t).view.emb j)
    refine congrArg (V c main_v28) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  have h1 : iblk1 V c 1 t (ix2 (⟨(j 0).val, (j 0).isLt⟩ : Fin 5000) (⟨0, Nat.one_pos⟩ : Fin 1))
      = V c main_v17 (ix2 (⟨((((cfg1.win 3).blk t).view.emb j) 0).val, ((((cfg1.win 3).blk t).view.emb j) 0).isLt⟩ : Fin 100000) (⟨0, Nat.one_pos⟩ : Fin 1)) := by
    show V c main_v17 (((cfg1.win 1).blk t).view.emb (ix2 (⟨(j 0).val, (j 0).isLt⟩ : Fin 5000) (⟨0, Nat.one_pos⟩ : Fin 1))) = _
    refine congrArg (V c main_v17) (funext fun a => Fin.ext ?_)
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 1 + 1 * 0 = 0; omega
  have h2 : iblk1 V c 2 t (ix2 (⟨0, Nat.one_pos⟩ : Fin 1) (⟨(j 1).val, (j 1).isLt⟩ : Fin 128))
      = V c main_v29 (ix2 (⟨0, Nat.one_pos⟩ : Fin 1) (⟨((((cfg1.win 3).blk t).view.emb j) 1).val, ((((cfg1.win 3).blk t).view.emb j) 1).isLt⟩ : Fin 128)) := by
    show V c main_v29 (((cfg1.win 2).blk t).view.emb (ix2 (⟨0, Nat.one_pos⟩ : Fin 1) (⟨(j 1).val, (j 1).isLt⟩ : Fin 128))) = _
    refine congrArg (V c main_v29) (funext fun a => Fin.ext ?_)
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega
  rw [h0, h1, h2]

/-- An index of the result is in block `t` iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v30).slice (win1_3.rect t)).set ↔ _
  rw [View.set_slice_whole, Rect.mem_set_unit]
  exact Iff.rfl

/-- Row `r` of the result is in block `r / 5000`. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨_, _, _, _, _, _, e30, e31⟩ := idx_facts t
  have ht : t.val = (i 0).val / 5000 := rfl
  refine ⟨t, flush1_3 t, (mem_blk t i).mpr fun a => ?_⟩
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE RESULT ARRAY after the kernel: `post` of the three arrays as the kernel finds them. -/
theorem final (c : Dev nD) : (dat1 V c).arrAt 3 cfg1.N = post (V c main_v28) (V c main_v17) (V c main_v29) :=
  (dat1 V c).arrAt_eq_of_cover 3 _ (fun t _ => flushed_eq V c t) cover

end Cert.KernelIdeal.Region1

end
-- ==== Proof.LibScaledScatter.lean ====
/-
  A sum of extended reals scaled by a non-negative real, and the accumulating scatter scaled.

  On the extended reals multiplication does not distribute over addition in general (`(⊤ + ⊥) * (-1)` against
  `⊤ * (-1) + ⊥ * (-1)`; `(1 + (-1)) * ⊤` against `⊤ + ⊥`), but it does when the common factor `q` is a non-negative REAL:
  `0 ≤ q`, `q ≠ ⊤`. Then a finite sum scaled is the sum of the scaled terms (`sum_mul_of_nonneg_ne_top`), and so the exact
  accumulating scatter (each operand element plus the sum of the updates landing on it) scaled at an element `i` is the
  scatter of the scaled operand and the scaled updates — only the updates that LAND ON `i` need be compared
  (`hostScatterAdd_mul`). Last, the reciprocal square root of an extended real `y ≥ 1` is such a factor
  (`rsqrt_nonneg_ne_top`: `⊤ ↦ 0`, a real `r ≥ 1 ↦ 1/√r`).
-/
import Idealize.ShloMosaic.PureOps.Ideal

noncomputable section

open scoped BigOperators

namespace Idealize.ShloMosaic.ScaledScatter

open Idealize.ShloMosaic

/-- A finite sum of extended reals times a non-negative real is the sum of the terms times it. -/
theorem sum_mul_of_nonneg_ne_top {ι : Type} (s : Finset ι) (f : ι → EReal) {q : EReal} (h0 : 0 ≤ q) (ht : q ≠ ⊤) :
    (∑ j ∈ s, f j) * q = ∑ j ∈ s, f j * q := by
  classical
  induction s using Finset.induction_on with
  | empty => simp
  | insert a s ha ih =>
    rw [Finset.sum_insert ha, Finset.sum_insert ha, EReal.right_distrib_of_nonneg_of_ne_top h0 ht, ih]

/-- THE ACCUMULATING SCATTER, SCALED AT ONE ELEMENT by a non-negative real `q`: the scatter of an operand whose element
    there is the scaled one and of updates that, WHERE THEY LAND ON THAT ELEMENT, are the scaled ones. -/
theorem hostScatterAdd_mul {s si su : Shape} (d : ScatterDims s si su) {w : Nat} (idx : IVec si w)
    (x x' : s.Idx → EReal) (upd upd' : su.Idx → EReal) (i : s.Idx) {q : EReal} (h0 : 0 ≤ q) (ht : q ≠ ⊤)
    (hx : x i * q = x' i) (hu : ∀ j, d.resultIdx? j idx = some i → upd j * q = upd' j) :
    Ideal.hostScatterAdd d x idx upd i * q = Ideal.hostScatterAdd d x' idx upd' i := by
  unfold Ideal.hostScatterAdd
  rw [EReal.right_distrib_of_nonneg_of_ne_top h0 ht, sum_mul_of_nonneg_ne_top _ _ h0 ht, hx]
  congr 1
  exact Finset.sum_congr rfl fun j hj => hu j (Finset.mem_filter.mp hj).2

/-- The reciprocal square root of an extended real at least `1` is a non-negative real. -/
theorem rsqrt_nonneg_ne_top {y : EReal} (hy : 1 ≤ y) : 0 ≤ Ideal.rsqrt y ∧ Ideal.rsqrt y ≠ ⊤ := by
  induction y using EReal.rec with
  | bot =>
    exact absurd (lt_of_lt_of_le (show (⊥ : EReal) < 1 by rw [← EReal.coe_one]; exact EReal.bot_lt_coe 1) hy) (lt_irrefl _)
  | top => simp
  | coe r =>
    have hr : (1 : ℝ) ≤ r := by exact_mod_cast hy
    rw [Ideal.rsqrt_coe, if_neg (by linarith), if_neg (by linarith)]
    exact ⟨by exact_mod_cast inv_nonneg.mpr (Real.sqrt_nonneg r), EReal.coe_ne_top _⟩

end Idealize.ShloMosaic.ScaledScatter

end
-- ==== Proof.Scales.lean ====
/-
  The per-node scale `d` and the target index of an edge that lands.

  `d[n]` is `0` where the degree is not positive and `1/√(max (deg n) 1)` elsewhere: in both cases a NON-NEGATIVE REAL
  (`d_nonneg_ne_top`), which is what lets a sum be scaled by it term by term. And for an edge whose target word `b`, read as a
  signed integer, is a node `n` of the graph (`0 ≤ n < 100000`): the word is not negative, so the wrap-around of negative
  indices leaves it alone (`wrap_of_nonneg`), and clamping it into the node range gives `n` back (`clamp_of_node`).
-/
import proofs.«125633_j60000693125427_2_alg».proof.Proof.RefReadP
import proofs.«125633_j60000693125427_2_alg».proof.Proof.LibScaledScatter
import Idealize.ShloMosaic.Lib.ValueIdx
import Idealize.ShloMosaic.PureOps.Ideal.Laws

noncomputable section

open Idealize.ShloMosaic Idealize.ShloMosaic.ValueIdx Idealize.ShloMosaic.ScaledScatter

namespace Cert.ReferenceIdeal.Scales

open Cert.ReferenceIdeal Cert.ReferenceIdeal.ReadP

/-- The word `0x3F800000` denotes the real `1`. -/
theorem ofBits_one : Ideal.ofBits .f32 0x3F800000#32 = 1 := by
  simp [Ideal.ofBits, Ideal.ieee, -EReal.coe_mul]; norm_num

/-- Every node's scale is a non-negative real: zero, or the reciprocal square root of a number at least one. -/
theorem d_nonneg_ne_top (x1 : (⟨S2x1600000, .i32⟩ : BufTy).Contents (Elt Ideal)) (n : S100000.Idx) :
    0 ≤ val_main_v16 (F := Ideal) x1 n ∧ val_main_v16 (F := Ideal) x1 n ≠ ⊤ := by
  rw [val_main_v16_apply]
  rcases BitVec.eq_zero_or_eq_one (val_main_v12 (F := Ideal) x1 n) with h | h
  · rw [h, select_zero, val_main_call0_v1_apply, val_main_call0_v0_apply, val_main_cst_3_apply]
    rw [Ideal.ofBits_def, Ideal.ofBits_zero_f32]
    exact ⟨le_refl _, EReal.zero_ne_top⟩
  · rw [h, select_one, val_main_v15_apply, val_main_v14_apply, val_main_v13_apply, val_main_cst_2_apply]
    rw [Ideal.hostUnary_rsqrt_def, Ideal.maximumf_def, Ideal.ofBits_def]
    exact rsqrt_nonneg_ne_top (by rw [ofBits_one]; exact le_max_right _ _)

/-- A word that is not negative as a signed integer is not below zero in the signed comparison. -/
theorem cmpi_slt_zero_of_nonneg (b : BitVec 32) (h : 0 ≤ b.toInt) : IntOp.cmpi .slt b 0#32 = 0#1 := by
  have hs : b.slt 0#32 = false := by
    simp only [BitVec.slt, BitVec.toInt_zero]
    exact decide_eq_false (by omega)
  show BitVec.ofBool (b.slt 0#32) = 0#1
  rw [hs]; rfl

/-- The wrap-around of negative indices (`b < 0 ? b + N : b`) leaves a non-negative word alone. -/
theorem wrap_of_nonneg (b a : BitVec 32) (h : 0 ≤ b.toInt) :
    Scalar.select (IntOp.cmpi .slt b 0#32) a b = b := by
  rw [cmpi_slt_zero_of_nonneg b h, select_zero]

/-- Clamping a word that is a node's number into the node range gives the node back. -/
theorem clamp_of_node (b : BitVec 32) (n : Nat) (hn : n < 100000) (h : b.toInt = (n : Int)) :
    min b.toInt.toNat (100000 - 1) = n := by
  rw [h]; omega

end Cert.ReferenceIdeal.Scales

end
-- ==== Proof.LibRowIndexing.lean ====
/-
  Rows picked by an integer column, read at an index.

  Three of StableHLO's indexed operations in the forms that `x[idx]` and `segment_sum` over the rows of a matrix lower to,
  each read at ONE index, for literal extents `N` (rows of the operand), `L` (number of picks) and `C` (row length):

  * `gather_rows_apply`  — the gather of whole rows of an `[N, C]` operand at an `[L, 1]` column of start indices:
    element `(l, c)` of the result is the operand at row `clamp (idx[l, 0])`, column `c`, the start index read signed and
    clamped into `[0, N − 1]`;
  * `gather_elems_apply` — the same for a flat `[N]` operand: element `l` is the operand at `clamp (idx[l, 0])`;
  * `scatter_rows_resultIdx` — where update element `(l, c)` of a row scatter into an `[N, C]` operand lands: if it lands on
    `i` at all then `idx[l, 0]`, read signed and NOT clamped, is `i`'s row and `c` is `i`'s column.
-/
import Idealize.ShloMosaic.PureOps.Ideal
import Idealize.ShloMosaic.Lib.ValueIdx

noncomputable section

namespace Idealize.ShloMosaic.RowIndexing

open Idealize.ShloMosaic Idealize.ShloMosaic.ValueIdx

/-- The start-indices index `[l, 0]` of pick `l`. -/
abbrev pickIdx {L : Nat} (l : Fin L) : (⟨2, ![L, 1]⟩ : Shape).Idx := ix2 l (⟨0, Nat.one_pos⟩ : Fin 1)

section Gather
variable {α : Type}

/-- The dimension numbers of a gather of whole rows: operand `[N, C]`, start indices `[L, 1]`, result `[L, C]`. -/
abbrev rowsDims (N L C : Nat)
    (wf : GatherDims.WF ⟨2, ![N, C]⟩ ⟨2, ![L, 1]⟩ ⟨2, ![L, C]⟩ [1] [0] [] [0] [] 1 ![1, C]) :
    GatherDims ⟨2, ![N, C]⟩ ⟨2, ![L, 1]⟩ ⟨2, ![L, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(l, c)`: the operand at row `idx[l, 0]`, read signed and clamped into `[0, N − 1]`, column `c`. -/
theorem gather_rows_apply {N L C w : Nat} (hN : 0 < N)
    (wf : GatherDims.WF ⟨2, ![N, C]⟩ ⟨2, ![L, 1]⟩ ⟨2, ![L, C]⟩ [1] [0] [] [0] [] 1 ![1, C])
    (x : (⟨2, ![N, C]⟩ : Shape).Idx → α) (idx : IVec ⟨2, ![L, 1]⟩ w) (y : (⟨2, ![L, C]⟩ : Shape).Idx) :
    Host.gather (rowsDims N L C wf) x idx y
      = x (ix2 (⟨min (idx (pickIdx (y 0))).toInt.toNat (N - 1), by omega⟩ : Fin N) (y 1)) := by
  unfold Host.gather
  congr 1
  funext a
  refine Fin.ext ?_
  match a with
  | ⟨0, _⟩ =>
    show (rowsDims N L C wf).start y idx 0 + (rowsDims N L C wf).batchCoord y 0 + (rowsDims N L C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N L C wf).startIndexMap from List.mem_singleton.mpr rfl)]
    have hsi : (rowsDims N L C wf).siIdx y ⟨List.idxOf (0 : Fin 2) (rowsDims N L C wf).startIndexMap,
        List.idxOf_lt_length_iff.2 (List.mem_singleton.mpr rfl)⟩ = pickIdx (y 0) := by
      funext b; refine Fin.ext ?_
      match b with
      | ⟨0, _⟩ => rfl
      | ⟨1, _⟩ => rfl
    rw [hsi]
    rfl
  | ⟨1, _⟩ =>
    show (rowsDims N L C wf).start y idx 1 + (rowsDims N L C wf).batchCoord y 1 + (rowsDims N L C wf).offCoord y 1 = (y 1).val
    rw [GatherDims.batchCoord_eq_zero _ _ _ List.not_mem_nil]
    have hs : (rowsDims N L C wf).start y idx 1 = 0 := by
      unfold GatherDims.start
      exact dif_neg (show (1 : Fin 2) ∉ ([0] : List (Fin 2)) by decide)
    rw [hs]
    simp only [Nat.zero_add, Nat.add_zero]
    unfold GatherDims.offCoord
    rw [dif_pos ((GatherDims.mem_sKept (rowsDims N L C wf) 1).mpr
      ⟨(show (1 : Fin 2) ∉ ([0] : List (Fin 2)) by decide), List.not_mem_nil⟩)]
    rfl

/-- The dimension numbers of a gather of single elements: operand `[N]`, start indices `[L, 1]`, result `[L]`. -/
abbrev elemsDims (N L : Nat)
    (wf : GatherDims.WF ⟨1, ![N]⟩ ⟨2, ![L, 1]⟩ ⟨1, ![L]⟩ [] [0] [] [0] [] 1 ![1]) :
    GatherDims ⟨1, ![N]⟩ ⟨2, ![L, 1]⟩ ⟨1, ![L]⟩ where
  offsetDims := []
  collapsedSliceDims := [0]
  operandBatchingDims := []
  startIndicesBatchingDims := []
  startIndexMap := [0]
  indexVectorDim := 1
  sliceSizes := ![1]
  wf := wf

/-- THE ELEMENT GATHER READ AT `l`: the operand at `idx[l, 0]`, read signed and clamped into `[0, N − 1]`. -/
theorem gather_elems_apply {N L w : Nat} (hN : 0 < N)
    (wf : GatherDims.WF ⟨1, ![N]⟩ ⟨2, ![L, 1]⟩ ⟨1, ![L]⟩ [] [0] [] [0] [] 1 ![1])
    (x : (⟨1, ![N]⟩ : Shape).Idx → α) (idx : IVec ⟨2, ![L, 1]⟩ w) (y : (⟨1, ![L]⟩ : Shape).Idx) :
    Host.gather (elemsDims N L wf) x idx y
      = x (ix1 (⟨min (idx (pickIdx (y 0))).toInt.toNat (N - 1), by omega⟩ : Fin N)) := by
  unfold Host.gather
  congr 1
  funext a
  obtain rfl : a = 0 := Subsingleton.elim _ _
  refine Fin.ext ?_
  show (elemsDims N L wf).start y idx 0 + (elemsDims N L wf).batchCoord y 0 + (elemsDims N L wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemsDims N L wf).startIndexMap from List.mem_singleton.mpr rfl)]
  have hsi : (elemsDims N L wf).siIdx y ⟨List.idxOf (0 : Fin 1) (elemsDims N L wf).startIndexMap,
      List.idxOf_lt_length_iff.2 (List.mem_singleton.mpr rfl)⟩ = pickIdx (y 0) := by
    funext b; refine Fin.ext ?_
    match b with
    | ⟨0, _⟩ => rfl
    | ⟨1, _⟩ => rfl
  rw [hsi]
  rfl

end Gather

section Scatter

/-- The dimension numbers of a scatter of whole rows: operand `[N, C]`, scatter indices `[L, 1]`, updates `[L, C]`. -/
abbrev rowsScatter (N L C : Nat)
    (wf : ScatterDims.WF ⟨2, ![N, C]⟩ ⟨2, ![L, 1]⟩ ⟨2, ![L, C]⟩ [1] [0] [0] 1) :
    ScatterDims ⟨2, ![N, C]⟩ ⟨2, ![L, 1]⟩ ⟨2, ![L, C]⟩ where
  updateWindowDims := [1]
  insertedWindowDims := [0]
  scatterDimsToOperandDims := [0]
  indexVectorDim := 1
  wf := wf

/-- WHERE AN UPDATE ELEMENT LANDS: if update element `(l, c)` lands on `i`, then `idx[l, 0]` read signed is `i`'s row and
    `c` is `i`'s column. -/
theorem scatter_rows_resultIdx {N L C w : Nat}
    (wf : ScatterDims.WF ⟨2, ![N, C]⟩ ⟨2, ![L, 1]⟩ ⟨2, ![L, C]⟩ [1] [0] [0] 1)
    (idx : IVec ⟨2, ![L, 1]⟩ w) (j : (⟨2, ![L, C]⟩ : Shape).Idx) (i : (⟨2, ![N, C]⟩ : Shape).Idx)
    (h : (rowsScatter N L C wf).resultIdx? j idx = some i) :
    (idx (pickIdx (j 0))).toInt = ((i 0).val : Int) ∧ (j 1).val = (i 1).val := by
  have s0 : (rowsScatter N L C wf).start j idx 0 = (idx (pickIdx (j 0))).toInt := by
    unfold ScatterDims.start
    rw [dif_pos (show (0 : Fin 2) ∈ (rowsScatter N L C wf).scatterDimsToOperandDims from List.mem_singleton.mpr rfl)]
    have hsi : (rowsScatter N L C wf).siIdx j ⟨List.idxOf (0 : Fin 2) (rowsScatter N L C wf).scatterDimsToOperandDims,
        List.idxOf_lt_length_iff.2 (List.mem_singleton.mpr rfl)⟩ = pickIdx (j 0) := by
      funext b; refine Fin.ext ?_
      match b with
      | ⟨0, _⟩ => rfl
      | ⟨1, _⟩ => rfl
    rw [hsi]
    rfl
  have k0 : (0 : Fin 2) ∉ (rowsScatter N L C wf).sKept := by
    simp [ScatterDims.sKept, Shape.kept, List.mem_filter, List.mem_finRange]
  have k1 : (1 : Fin 2) ∈ (rowsScatter N L C wf).sKept := by
    simp [ScatterDims.sKept, Shape.kept, List.mem_filter, List.mem_finRange]
  have w0 : (rowsScatter N L C wf).window j 0 = 0 := by
    unfold ScatterDims.window
    exact dif_neg k0
  have s1 : (rowsScatter N L C wf).start j idx 1 = 0 := by
    unfold ScatterDims.start
    exact dif_neg (show (1 : Fin 2) ∉ ([0] : List (Fin 2)) by decide)
  have w1 : (rowsScatter N L C wf).window j 1 = (j 1).val := by
    unfold ScatterDims.window
    rw [dif_pos k1]
    rfl
  unfold ScatterDims.resultIdx? at h
  split at h
  · rename_i hall
    have hi := Option.some.inj h
    have h0 := hall 0
    have h1 := hall 1
    have e0 : (i 0).val = ((rowsScatter N L C wf).start j idx 0 + ((rowsScatter N L C wf).window j 0 : Int)).toNat := by
      rw [← hi]
    have e1 : (i 1).val = ((rowsScatter N L C wf).start j idx 1 + ((rowsScatter N L C wf).window j 1 : Int)).toNat := by
      rw [← hi]
    rw [s0, w0] at e0 h0
    rw [s1, w1] at e1 h1
    constructor <;> omega
  · exact absurd h (by simp)

end Scatter

end Idealize.ShloMosaic.RowIndexing

end
-- ==== Proof.Bridge.lean ====
/-
  The two programs compute one function.

  Write `h = x · w` (row `r`, column `c`: `∑ k, x[r, k] · w[k, c]`), `d` for the per-node scale, `s(l)` and `t(l)` for the source and
  target of edge `l` (self loops included; a source is wrapped and clamped into the node range, a target that is not a node
  is dropped by the scatter). At node `n` and column `c`

    the kernel program gives     max ((0 + ∑_{l : t(l) = n} (h[s(l), c] · d[s(l)])) · d[n] + b[c]) 0
    the reference gives          max ((0 + ∑_{l : t(l) = n}  h[s(l), c] · (d[s(l)] · d[t(l)])) + b[c]) 0.

  Under the sum `t(l) = n`, so `d[t(l)] = d[n]`; the products re-associate; and the common factor `d[n]`, a NON-NEGATIVE REAL,
  moves across the sum (on the extended reals this is where non-negativity and finiteness of `d[n]` are used — no property
  of `x`, `w` or `b` is). The rest is reading each gather, scatter and broadcast at an index.
-/
import proofs.«125633_j60000693125427_2_alg».proof.Proof.RefReadP
import proofs.«125633_j60000693125427_2_alg».proof.Proof.Region0
import proofs.«125633_j60000693125427_2_alg».proof.Proof.Region1
import proofs.«125633_j60000693125427_2_alg».proof.Proof.Scales
import proofs.«125633_j60000693125427_2_alg».proof.Proof.LibRowIndexing
import proofs.«125633_j60000693125427_2_alg».proof.Proof.LibScaledScatter
import Idealize.ShloMosaic.Lib.Pipeline.Value
import Idealize.ShloMosaic.Lib.ValueIdx
import Idealize.ShloMosaic.PureOps.Ideal.Laws

noncomputable section

open Idealize.ShloMosaic Idealize.ShloMosaic.ValueIdx Idealize.ShloMosaic.RowIndexing Idealize.ShloMosaic.ScaledScatter

namespace Cert.Bridge

open Cert.ReferenceIdeal Cert.ReferenceIdeal.ReadP Cert.ReferenceIdeal.Scales

/-! ## The two reshapes of the kernel program, read at an index -/

/-- The scale as a column: entry `(n, 0)` is `d[n]`. -/
theorem col_apply (d : (⟨S100000, .f32⟩ : BufTy).Contents (Elt Ideal)) (n : Fin 100000) :
    shapeCast Cert.KernelIdeal.S100000x1 d Cert.KernelIdeal.Gen.shapeCasts_S100000_S100000x1 (ix2 n (⟨0, Nat.one_pos⟩ : Fin 1)) = d (ix1 n) := by
  refine shapeCast_apply d _ _ (ix1 n) ?_
  rw [Shape.rowMajor_val_one, Shape.rowMajor_val_two]
  show n.val = n.val * 1 + 0
  omega

/-- The bias as a row: entry `(0, c)` is `b[c]`. -/
theorem row_apply (x3 : (⟨S128, .f32⟩ : BufTy).Contents (Elt Ideal)) (c : Fin 128) :
    shapeCast Cert.KernelIdeal.S1x128 x3 Cert.KernelIdeal.Gen.shapeCasts_S128_S1x128 (ix2 (⟨0, Nat.one_pos⟩ : Fin 1) c) = x3 (ix1 c) := by
  refine shapeCast_apply x3 _ _ (ix1 c) ?_
  rw [Shape.rowMajor_val_one, Shape.rowMajor_val_two]
  show c.val = 0 * 128 + c.val
  omega

/-! ## The gathers and the scatter of this program, read at an index -/

/-- Rows of an `[N, 128]` array picked by a column of indices. -/
theorem gather_rows (P : (⟨S100000x128, .f32⟩ : BufTy).Contents (Elt Ideal)) (idx : (⟨S1700000x1, .i32⟩ : BufTy).Contents (Elt Ideal))
    (l : Fin 1700000) (c : Fin 128) :
    Host.gather gather_S100000x128_S1700000x1_S1700000x128_1_0_n_n_0_1_1128 P idx (ix2 l c)
      = P (ix2 (⟨min (idx (pickIdx l)).toInt.toNat (100000 - 1), by omega⟩ : Fin 100000) c) :=
  gather_rows_apply (N := 100000) (L := 1700000) (C := 128) (by decide) Facts₀.gather_S100000x128_S1700000x1_S1700000x128_1_0_n_n_0_1_1128_wf P idx (ix2 l c)

/-- Entries of an `[N]` array picked by a column of indices. -/
theorem gather_elems (d : (⟨S100000, .f32⟩ : BufTy).Contents (Elt Ideal)) (idx : (⟨S1700000x1, .i32⟩ : BufTy).Contents (Elt Ideal))
    (l : Fin 1700000) :
    Host.gather gather_S100000_S1700000x1_S1700000_n_0_n_n_0_1_1 d idx (ix1 l)
      = d (ix1 (⟨min (idx (pickIdx l)).toInt.toNat (100000 - 1), by omega⟩ : Fin 100000)) :=
  gather_elems_apply (N := 100000) (L := 1700000) (by decide) Facts₀.gather_S100000_S1700000x1_S1700000_n_0_n_n_0_1_1_wf d idx (ix1 l)

/-- An update element `(l, c')` that lands on `(n, c)`: the target word of edge `l`, read signed, is `n`, and `c' = c`. -/
theorem landing (idx : (⟨S1700000x1, .i32⟩ : BufTy).Contents (Elt Ideal)) (l : Fin 1700000) (c' : Fin 128) (n : Fin 100000) (c : Fin 128)
    (h : scatter_S100000x128_S1700000x1_S1700000x128_1_0_0_1.resultIdx? (ix2 l c') idx = some (ix2 n c)) :
    (idx (pickIdx l)).toInt = (n.val : Int) ∧ c'.val = c.val :=
  scatter_rows_resultIdx (N := 100000) (L := 1700000) (C := 128) Facts₀.scatter_S100000x128_S1700000x1_S1700000x128_1_0_0_1_wf idx (ix2 l c') (ix2 n c) h

/-! ## The index columns -/

theorem idx44_pick (l : Fin 1700000) : idx_main_v44 (pickIdx l) = ix1 l :=
  funext fun a => Fin.ext (by match a with | ⟨0, _⟩ => rfl)
theorem idx29_pick (l : Fin 1700000) : idx_main_v29 (pickIdx l) = ix1 l :=
  funext fun a => Fin.ext (by match a with | ⟨0, _⟩ => rfl)

/-- The target column holds the target words. -/
theorem dst_col (x1 : (⟨S2x1600000, .i32⟩ : BufTy).Contents (Elt Ideal)) (l : Fin 1700000) : val_main_v44 (F := Ideal) x1 (pickIdx l) = val_main_v6 (F := Ideal) x1 (ix1 l) := by
  rw [val_main_v44_apply, idx44_pick]

/-- The wrapped target column: the target word, plus `N` when it is negative. -/
theorem dstn_col (x1 : (⟨S2x1600000, .i32⟩ : BufTy).Contents (Elt Ideal)) (l : Fin 1700000) :
    val_main_v29 (F := Ideal) x1 (pickIdx l)
      = Scalar.select (IntOp.cmpi .slt (val_main_v6 (F := Ideal) x1 (ix1 l)) 0#32)
          (IntOp.addi (val_main_v6 (F := Ideal) x1 (ix1 l)) 100000#32) (val_main_v6 (F := Ideal) x1 (ix1 l)) := by
  rw [val_main_v29_apply, idx29_pick, val_main_v28_apply, val_main_v25_apply, val_main_v27_apply, val_main_v24_apply, val_main_c_5_apply,
    val_main_v26_apply, val_main_c_6_apply]

/-- The source row of edge `l`: its source word wrapped and clamped into the node range. -/
def srcRow (x1 : (⟨S2x1600000, .i32⟩ : BufTy).Contents (Elt Ideal)) (l : Fin 1700000) : Fin 100000 :=
  ⟨min (val_main_v38 (F := Ideal) x1 (pickIdx l)).toInt.toNat (100000 - 1), by omega⟩

/-- The reference's scale at the source of edge `l`. -/
theorem scale_src (x1 : (⟨S2x1600000, .i32⟩ : BufTy).Contents (Elt Ideal)) (l : Fin 1700000) :
    val_main_v23 (F := Ideal) x1 (ix1 l) = val_main_v16 (F := Ideal) x1 (ix1 (srcRow x1 l)) := by
  unfold val_main_v23
  rw [gather_elems]
  rfl

/-- The reference's scale at the target of an edge `l` whose target is the node `n`: `d[n]`. -/
theorem scale_dst (x1 : (⟨S2x1600000, .i32⟩ : BufTy).Contents (Elt Ideal)) (l : Fin 1700000) (n : Fin 100000)
    (h : (val_main_v6 (F := Ideal) x1 (ix1 l)).toInt = (n.val : Int)) :
    val_main_v30 (F := Ideal) x1 (ix1 l) = val_main_v16 (F := Ideal) x1 (ix1 n) := by
  unfold val_main_v30
  rw [gather_elems]
  refine congrArg (fun k => val_main_v16 (F := Ideal) x1 (ix1 k)) (Fin.ext ?_)
  show min (val_main_v29 (F := Ideal) x1 (pickIdx l)).toInt.toNat (100000 - 1) = n.val
  rw [dstn_col, wrap_of_nonneg _ _ (by rw [h]; omega)]
  exact clamp_of_node _ n.val n.isLt h

/-! ## The two products -/

/-- The first kernel's result at `(r, c)`. -/
theorem pre_apply (x0 : (⟨S100000x256, .f32⟩ : BufTy).Contents (Elt Ideal)) (x2 : (⟨S256x128, .f32⟩ : BufTy).Contents (Elt Ideal)) (d2 : (⟨Cert.KernelIdeal.S100000x1, .f32⟩ : BufTy).Contents (Elt Ideal)) (r : Fin 100000) (c : Fin 128) :
    Cert.KernelIdeal.Region0.post x0 x2 d2 (ix2 r c)
      = (∑ k : Fin 256, x0 (ix2 r k) * x2 (ix2 k c)) * d2 (ix2 r (⟨0, Nat.one_pos⟩ : Fin 1)) := rfl

/-- The reference's product at `(r, c)`. -/
theorem dot_apply (x0 : (⟨S100000x256, .f32⟩ : BufTy).Contents (Elt Ideal)) (x2 : (⟨S256x128, .f32⟩ : BufTy).Contents (Elt Ideal)) (r : Fin 100000) (c : Fin 128) :
    val_main_v32 (F := Ideal) x0 x2 (ix2 r c) = ∑ k : Fin 256, x0 (ix2 r k) * x2 (ix2 k c) := by
  rw [val_main_v32_apply]
  refine Finset.sum_congr rfl fun k _ => ?_
  have el : lidx_main_v32 (ix2 r c) k = ix2 r k := funext fun a => Fin.ext (by match a with | ⟨0, _⟩ => rfl | ⟨1, _⟩ => rfl)
  have er : ridx_main_v32 (ix2 r c) k = ix2 k c := funext fun a => Fin.ext (by match a with | ⟨0, _⟩ => rfl | ⟨1, _⟩ => rfl)
  rw [el, er]

/-! ## One update, where it lands -/

/-- The kernel program's update `(l, c')` scaled by `d[n]` is the reference's update, when it lands on `(n, c)`. -/
theorem update_eq (x0 : (⟨S100000x256, .f32⟩ : BufTy).Contents (Elt Ideal)) (x1 : (⟨S2x1600000, .i32⟩ : BufTy).Contents (Elt Ideal)) (x2 : (⟨S256x128, .f32⟩ : BufTy).Contents (Elt Ideal)) (l : Fin 1700000) (c' : Fin 128) (n : Fin 100000) (c : Fin 128)
    (h : scatter_S100000x128_S1700000x1_S1700000x128_1_0_0_1.resultIdx? (ix2 l c') (val_main_v44 (F := Ideal) x1) = some (ix2 n c)) :
    Host.gather gather_S100000x128_S1700000x1_S1700000x128_1_0_n_n_0_1_1128
        (Cert.KernelIdeal.Region0.post x0 x2
          (shapeCast Cert.KernelIdeal.S100000x1 (val_main_v16 (F := Ideal) x1) Cert.KernelIdeal.Gen.shapeCasts_S100000_S100000x1))
        (val_main_v38 (F := Ideal) x1) (ix2 l c') * val_main_v16 (F := Ideal) x1 (ix1 n)
      = val_main_v42 (F := Ideal) x0 x1 x2 (ix2 l c') := by
  obtain ⟨hrow, -⟩ := landing _ l c' n c h
  rw [dst_col] at hrow
  have he : idx_main_v40 (idx_main_v41 (ix2 l c')) = ix1 l := funext fun a => Fin.ext (by match a with | ⟨0, _⟩ => rfl)
  rw [gather_rows, pre_apply, col_apply]
  rw [val_main_v42_apply, val_main_v41_apply, val_main_v40_apply, val_main_v31_apply, he, scale_src, scale_dst x1 l n hrow]
  unfold val_main_v39
  rw [gather_rows, dot_apply, Ideal.mulf_def, Ideal.mulf_def, mul_assoc]
  rfl

/-- The second kernel's result at `(n, c)`. -/
theorem post_apply (agg : (⟨S100000x128, .f32⟩ : BufTy).Contents (Elt Ideal)) (d2 : (⟨Cert.KernelIdeal.S100000x1, .f32⟩ : BufTy).Contents (Elt Ideal))
    (b2 : (⟨Cert.KernelIdeal.S1x128, .f32⟩ : BufTy).Contents (Elt Ideal)) (n : Fin 100000) (c : Fin 128) :
    Cert.KernelIdeal.Region1.post agg d2 b2 (ix2 n c)
      = max (agg (ix2 n c) * d2 (ix2 n (⟨0, Nat.one_pos⟩ : Fin 1)) + b2 (ix2 (⟨0, Nat.one_pos⟩ : Fin 1) c)) (Ideal.ofBits .f32 0x00000000#32) := rfl

end Cert.Bridge

end
-- ==== Proof.BridgeTop.lean ====
/-
  The kernel program's function of the four argument arrays, and that it is the reference's last stage.

  The aggregated array is scaled row by row AFTER the scatter in the kernel program and update by update BEFORE it in the
  reference. `scatter_scaled` moves the scale (a non-negative real) across the scatter at one element, for ANY two arrays of
  updates that agree, scaled, where they land there; `kernelValue_eq` then reads the last operations of both programs at
  an index and applies it to the two programs' updates (`Bridge.update_eq`).
-/
import proofs.«125633_j60000693125427_2_alg».proof.Proof.Bridge

noncomputable section

open Idealize.ShloMosaic Idealize.ShloMosaic.ValueIdx Idealize.ShloMosaic.RowIndexing Idealize.ShloMosaic.ScaledScatter

namespace Cert.Bridge

open Cert.ReferenceIdeal Cert.ReferenceIdeal.ReadP Cert.ReferenceIdeal.Scales

/-- The scatter-add from zero at the targets, scaled at `(n, c)` by a non-negative real `q`, is the scatter-add of updates
    that are the scaled ones wherever they land on `(n, c)`. -/
theorem scatter_scaled (x1 : (⟨S2x1600000, .i32⟩ : BufTy).Contents (Elt Ideal)) (updK updR : S1700000x128.Idx → EReal) (n : Fin 100000) (c : Fin 128)
    (q : EReal) (h0 : 0 ≤ q) (ht : q ≠ ⊤)
    (hu : ∀ (l : Fin 1700000) (c' : Fin 128),
      scatter_S100000x128_S1700000x1_S1700000x128_1_0_0_1.resultIdx? (ix2 l c') (val_main_v44 (F := Ideal) x1) = some (ix2 n c) → updK (ix2 l c') * q = updR (ix2 l c')) :
    Host.scatterAdd (F := Ideal) (φ := .f32) scatter_S100000x128_S1700000x1_S1700000x128_1_0_0_1 (val_main_v43 (F := Ideal)) (val_main_v44 (F := Ideal) x1) updK (ix2 n c) * q
      = Host.scatterAdd (F := Ideal) (φ := .f32) scatter_S100000x128_S1700000x1_S1700000x128_1_0_0_1 (val_main_v43 (F := Ideal)) (val_main_v44 (F := Ideal) x1) updR (ix2 n c) := by
  rw [Host.scatterAdd, Host.scatterAdd, Ideal.hostScatterAdd_def, Ideal.hostScatterAdd_def]
  refine hostScatterAdd_mul scatter_S100000x128_S1700000x1_S1700000x128_1_0_0_1 (val_main_v44 (F := Ideal) x1) (val_main_v43 (F := Ideal)) (val_main_v43 (F := Ideal)) updK updR
    (ix2 n c) h0 ht ?_ ?_
  · rw [val_main_v43_apply, val_main_cst_9_apply, Ideal.ofBits_def, Ideal.ofBits_zero_f32, zero_mul]
  · intro j hj
    obtain ⟨l, c', rfl⟩ : ∃ (l : Fin 1700000) (c' : Fin 128), j = ix2 l c' := ⟨j 0, j 1, eq_ix2 j⟩
    exact hu l c' hj

/-- The array of updates of the kernel program: the rows of the first kernel's result at the sources. -/
def updK (x0 : (⟨S100000x256, .f32⟩ : BufTy).Contents (Elt Ideal)) (x1 : (⟨S2x1600000, .i32⟩ : BufTy).Contents (Elt Ideal)) (x2 : (⟨S256x128, .f32⟩ : BufTy).Contents (Elt Ideal)) : (⟨S1700000x128, .f32⟩ : BufTy).Contents (Elt Ideal) :=
  Host.gather gather_S100000x128_S1700000x1_S1700000x128_1_0_n_n_0_1_1128
    (Cert.KernelIdeal.Region0.post x0 x2
      (shapeCast Cert.KernelIdeal.S100000x1 (val_main_v16 (F := Ideal) x1) Cert.KernelIdeal.Gen.shapeCasts_S100000_S100000x1))
    (val_main_v38 (F := Ideal) x1)

/-- What the kernel program computes, as a function of the four argument arrays. -/
def kernelValue (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) : (⟨S100000x128, .f32⟩ : BufTy).Contents (Elt Ideal) :=
  Cert.KernelIdeal.Region1.post
    (Host.scatterAdd (F := Ideal) (φ := .f32) scatter_S100000x128_S1700000x1_S1700000x128_1_0_0_1 (val_main_v43 (F := Ideal)) (val_main_v44 (F := Ideal) x1) (updK x0 x1 x2))
    (shapeCast Cert.KernelIdeal.S100000x1 (val_main_v16 (F := Ideal) x1) Cert.KernelIdeal.Gen.shapeCasts_S100000_S100000x1)
    (shapeCast Cert.KernelIdeal.S1x128 x3 Cert.KernelIdeal.Gen.shapeCasts_S128_S1x128)

/-- The reference's result at `(n, c)`: its aggregated array plus the bias, clamped at zero. -/
theorem ref_apply (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (n : Fin 100000) (c : Fin 128) :
    val_main_v49 (F := Ideal) x0 x1 x2 x3 (ix2 n c)
      = max (Host.scatterAdd (F := Ideal) (φ := .f32) scatter_S100000x128_S1700000x1_S1700000x128_1_0_0_1 (val_main_v43 (F := Ideal)) (val_main_v44 (F := Ideal) x1)
              (val_main_v42 (F := Ideal) x0 x1 x2) (ix2 n c) + x3 (ix1 c)) (Ideal.ofBits .f32 0x00000000#32) := by
  have hb : idx_main_v46 (idx_main_v47 (ix2 n c)) = ix1 c := funext fun a => Fin.ext (by match a with | ⟨0, _⟩ => rfl)
  rw [val_main_v49_apply, val_main_v48_apply, val_main_call1_v0_apply, val_main_call1_cst_apply, val_main_v47_apply, val_main_v46_apply,
    hb, Ideal.maximumf_def, Ideal.addf_def, Ideal.ofBits_def]
  rfl

/-- The kernel program's result at `(n, c)`: its aggregated array scaled by `d[n]`, plus the bias, clamped at zero. -/
theorem kernel_apply (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (n : Fin 100000) (c : Fin 128) :
    kernelValue x0 x1 x2 x3 (ix2 n c)
      = max (Host.scatterAdd (F := Ideal) (φ := .f32) scatter_S100000x128_S1700000x1_S1700000x128_1_0_0_1 (val_main_v43 (F := Ideal)) (val_main_v44 (F := Ideal) x1)
              (updK x0 x1 x2) (ix2 n c) * val_main_v16 (F := Ideal) x1 (ix1 n) + x3 (ix1 c)) (Ideal.ofBits .f32 0x00000000#32) := by
  unfold kernelValue
  rw [post_apply, col_apply, row_apply]

/-- THE BRIDGE: the kernel program's function is the reference's last stage. -/
theorem kernelValue_eq (x0 : (⟨S100000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) :
    kernelValue x0 x1 x2 x3 = val_main_v49 (F := Ideal) x0 x1 x2 x3 := by
  funext i
  obtain ⟨n, c, rfl⟩ : ∃ (n : Fin 100000) (c : Fin 128), i = ix2 n c := ⟨i 0, i 1, eq_ix2 i⟩
  obtain ⟨hq0, hqt⟩ := d_nonneg_ne_top x1 (ix1 n)
  rw [kernel_apply, ref_apply,
    scatter_scaled x1 (updK x0 x1 x2) (val_main_v42 (F := Ideal) x0 x1 x2) n c _ hq0 hqt
      (fun l c' h => update_eq x0 x1 x2 l c' n c h)]

end Cert.Bridge

end
-- ==== Proof.KernelRun.lean ====
/-
  The kernel program's run with its RESULT named.

  The program is host operations, the first kernel, host operations, the second kernel. Its generated frame follows the
  contents of every buffer through those six segments (`Gen.W0` … `Gen.W6`) and reads the argument arrays off the last
  boundary; read at the RESULT buffer instead, the same run says that every weakly fair execution ends with the result array
  holding the last boundary's contents there (`run`), which are what the second kernel leaves in its output window
  (`result_eq`).
-/
import proofs.«125633_j60000693125427_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result array at the last
    boundary's contents and the argument arrays as launched. -/
theorem run : θ_run defs (onTc (τ := τ) (main (F := F))) ⟨m, fun _ => 0, ρ⟩ (fun r => ∀ c : Dev nD,
      r.2.mem ((c.tc : Thread nD τ).loc main_v30) = W6 m ρ c (Proc.devRef .tc main_v30)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v30 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

/-- The last boundary's contents at the result buffer are what the second kernel leaves in its output window. -/
theorem result_eq (c : Dev nD) : W6 m ρ c (Proc.devRef .tc main_v30) = (dat1 (V5 m ρ) c).arrAt 3 cfg1.N :=
  W6_arr m ρ c 3

end Cert.KernelIdeal.Result

end
-- ==== Proof.HostK.lean ====
/-
  The kernel program's host operations, read back.

  Before the first kernel the host computes, from the edge list `e = edge_index` alone, the source and target columns
  (each row of `e` followed by `0 … N−1`, the self loops), the degree of every node (a scatter of ones at the targets) and
  the column `d` of inverse square roots of the degrees. Between the two kernels it gathers the rows of the first kernel's
  result at the sources and scatter-adds them at the targets. These are the SAME operations, on the same operands, that the
  reference program performs, so each buffer is stated as the reference's own stage function of the argument arrays
  (`val_main_v3` the sources, `val_main_v6` the targets, `val_main_v16` the column `d`, `val_main_v38` / `val_main_v44` the
  two index columns, `val_main_v43` the zero array): the two programs' terms then meet by unfolding, with nothing to compute.
  Every statement holds for any float values (`F`).
-/
import proofs.«125633_j60000693125427_2_alg».proof.Proof.Gen.KernelIdeal.Frame
import proofs.«125633_j60000693125427_2_alg».proof.Proof.RefReadP
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Host

open Cert.KernelIdeal Cert.KernelIdeal.Gen
open Cert.ReferenceIdeal.ReadP (val_main_v3 val_main_v6 val_main_v16 val_main_v38 val_main_v43 val_main_v44)

variable {F : FTy → Type} [FloatOps F]
variable (m : (ℓ : Loc nD τ sig) → Buf (Elt F) ℓ) (ρ : Dev nD → PrngReg)

/-! ## Before the first kernel -/

/-- The source column. -/
theorem W3_src (c : Dev nD) :
    W3 m ρ c (Proc.devRef .tc main_v3) = val_main_v3 (F := F) (m ((c : Thread nD τ).loc main_arg1)) := by
  show StableHlo.after hostOps0_2 (StableHlo.after hostOps0_1 (StableHlo.after hostOps0 (W0 m ρ c))) (Proc.devRef .tc main_v3) = _
  dsimp only [hostOps0, hostOps0_1, hostOps0_2]
  after_results
  rfl

/-- The target column. -/
theorem W3_dst (c : Dev nD) :
    W3 m ρ c (Proc.devRef .tc main_v6) = val_main_v6 (F := F) (m ((c : Thread nD τ).loc main_arg1)) := by
  show StableHlo.after hostOps0_2 (StableHlo.after hostOps0_1 (StableHlo.after hostOps0 (W0 m ρ c))) (Proc.devRef .tc main_v6) = _
  dsimp only [hostOps0, hostOps0_1, hostOps0_2]
  after_results
  rfl

set_option maxHeartbeats 8000000 in
/-- The column of inverse square roots of the degrees, as an `[N, 1]` array. -/
theorem W3_d2 (c : Dev nD) :
    W3 m ρ c (Proc.devRef .tc main_v17)
      = shapeCast S100000x1 (val_main_v16 (F := F) (m ((c : Thread nD τ).loc main_arg1))) Cert.KernelIdeal.Gen.shapeCasts_S100000_S100000x1 := by
  show StableHlo.after hostOps0_2 (StableHlo.after hostOps0_1 (StableHlo.after hostOps0 (W0 m ρ c))) (Proc.devRef .tc main_v17) = _
  dsimp only [hostOps0, hostOps0_1, hostOps0_2]
  after_results_simp
  rfl

/-- The arguments the kernels and the later host operations read are as launched. -/
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  dsimp only [hostOps0, hostOps0_1, hostOps0_2]
  after_results
theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  dsimp only [hostOps0, hostOps0_1, hostOps0_2]
  after_results
theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  dsimp only [hostOps0, hostOps0_1, hostOps0_2]
  after_results

/-! ## After the first kernel: its result at what the kernel leaves, every other buffer as before -/

theorem W4_h (c : Dev nD) : W4 m ρ c (Proc.devRef .tc main_v18) = (dat0 (V3 m ρ) c).arrAt 3 cfg0.N := W4_arr m ρ c 3
theorem W4_src (c : Dev nD) : W4 m ρ c (Proc.devRef .tc main_v3) = val_main_v3 (F := F) (m ((c : Thread nD τ).loc main_arg1)) :=
  (W4_of_ne m ρ c main_v3 (by decide)).trans (W3_src m ρ c)
theorem W4_dst (c : Dev nD) : W4 m ρ c (Proc.devRef .tc main_v6) = val_main_v6 (F := F) (m ((c : Thread nD τ).loc main_arg1)) :=
  (W4_of_ne m ρ c main_v6 (by decide)).trans (W3_dst m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_d2 (c : Dev nD) : W4 m ρ c (Proc.devRef .tc main_v17) = W3 m ρ c (Proc.devRef .tc main_v17) :=
  (W4_arr m ρ c 2).trans (((dat0 (V3 m ρ) c).arrAt_in 2 rfl _).trans (A_eq0 (V3 m ρ) c 2))

/-! ## Between the kernels -/

set_option maxHeartbeats 8000000 in
/-- The aggregated array the second kernel is entered with: the rows of the first kernel's result gathered at the
    sources and scatter-added at the targets, from zero. -/
theorem W5_agg (c : Dev nD) :
    W5 m ρ c (Proc.devRef .tc main_v28)
      = Host.scatterAdd Cert.ReferenceIdeal.scatter_S100000x128_S1700000x1_S1700000x128_1_0_0_1 (val_main_v43 (F := F))
          (val_main_v44 (F := F) (m ((c : Thread nD τ).loc main_arg1)))
          (Host.gather Cert.ReferenceIdeal.gather_S100000x128_S1700000x1_S1700000x128_1_0_n_n_0_1_1128
            ((dat0 (V3 m ρ) c).arrAt 3 cfg0.N) (val_main_v38 (F := F) (m ((c : Thread nD τ).loc main_arg1)))) := by
  show StableHlo.after hostOps1 (W4 m ρ c) (Proc.devRef .tc main_v28) = _
  dsimp only [hostOps1]
  after_results_simp
  rw [W4_h, W4_src, W4_dst]
  rfl

set_option maxHeartbeats 8000000 in
/-- The column `d` is still what it was. -/
theorem W5_d2 (c : Dev nD) : W5 m ρ c (Proc.devRef .tc main_v17) = W3 m ρ c (Proc.devRef .tc main_v17) := by
  show StableHlo.after hostOps1 (W4 m ρ c) (Proc.devRef .tc main_v17) = _
  dsimp only [hostOps1]
  after_results_simp
  exact W4_d2 m ρ c

/-- The bias as a `[1, 128]` row. -/
theorem W5_b2 (c : Dev nD) :
    W5 m ρ c (Proc.devRef .tc main_v29) = shapeCast S1x128 (m ((c : Thread nD τ).loc main_arg3)) Cert.KernelIdeal.Gen.shapeCasts_S128_S1x128 := by
  show StableHlo.after hostOps1 (W4 m ρ c) (Proc.devRef .tc main_v29) = _
  dsimp only [hostOps1]
  after_results
  rw [W4_arg3]
  rfl

end Cert.KernelIdeal.Host

end
-- ==== Proof.KernelValue.lean ====
/-
  The kernel program's run, with the result array at its function of the four argument arrays.

  The result buffer ends at what the second kernel leaves in its output window; that is `Region1.post` of the three arrays
  the kernel is entered with; those are, by the host operations read back, the scatter-add of the gathered rows of the
  first kernel's result, the scale column and the bias row; and the first kernel's result is `Region0.post` of `x`, `w` and the
  scale column. Put together this is `Bridge.kernelValue` of the launch contents of the argument arrays.
-/
import proofs.«125633_j60000693125427_2_alg».proof.Proof.KernelRun
import proofs.«125633_j60000693125427_2_alg».proof.Proof.HostK
import proofs.«125633_j60000693125427_2_alg».proof.Proof.Region0
import proofs.«125633_j60000693125427_2_alg».proof.Proof.Region1
import proofs.«125633_j60000693125427_2_alg».proof.Proof.BridgeTop

noncomputable section

open Idealize.ShloMosaic Idealize.ShloMosaic.TcCoe Idealize.SL.Sem

namespace Cert.KernelIdeal.Value

open Cert.KernelIdeal Cert.KernelIdeal.Gen

variable (m : (ℓ : Loc nD τ sig) → Buf (Elt Ideal) ℓ) (ρ : Dev nD → PrngReg)

/-- The last boundary's contents at the result buffer: the kernel program's function of the argument arrays. -/
theorem result_value (c : Dev nD) :
    W6 m ρ c (Proc.devRef .tc main_v30)
      = Cert.Bridge.kernelValue (m ((c : Thread nD τ).loc main_arg0)) (m ((c : Thread nD τ).loc main_arg1))
          (m ((c : Thread nD τ).loc main_arg2)) (m ((c : Thread nD τ).loc main_arg3)) := by
  have e28 := Cert.KernelIdeal.Host.W5_agg m ρ c
  have e17 := (Cert.KernelIdeal.Host.W5_d2 m ρ c).trans (Cert.KernelIdeal.Host.W3_d2 m ρ c)
  have e29 := Cert.KernelIdeal.Host.W5_b2 m ρ c
  have a0 := Cert.KernelIdeal.Host.W3_arg0 m ρ c
  have a2 := Cert.KernelIdeal.Host.W3_arg2 m ρ c
  have a17 := Cert.KernelIdeal.Host.W3_d2 m ρ c
  rw [Cert.KernelIdeal.Region0.final (V3 m ρ) c] at e28
  refine (Cert.KernelIdeal.Result.result_eq m ρ c).trans ((Cert.KernelIdeal.Region1.final (V5 m ρ) c).trans ?_)
  refine (congrArg₂ (fun a b => Cert.KernelIdeal.Region1.post a b (V5 m ρ c main_v29)) e28 e17).trans ?_
  refine (congrArg (Cert.KernelIdeal.Region1.post _ _) e29).trans ?_
  have hpre := congrArg₂ (fun a b => Cert.KernelIdeal.Region0.post a b (V3 m ρ c main_v17)) a0 a2
  have hpre' := congrArg (Cert.KernelIdeal.Region0.post (m ((c : Thread nD τ).loc main_arg0)) (m ((c : Thread nD τ).loc main_arg2))) a17
  rw [hpre.trans hpre']
  rfl

/-- Every weakly fair execution of the kernel program terminates, nothing faulting, with the result array at
    `Bridge.kernelValue` of the argument arrays and the argument arrays unchanged. -/
theorem run : θ_run defs (onTc (τ := τ) (main (F := Ideal))) ⟨m, fun _ => 0, ρ⟩ (fun r => ∀ c : Dev nD,
      r.2.mem ((c.tc : Thread nD τ).loc main_v30)
        = Cert.Bridge.kernelValue (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_value m ρ c), (h c).2⟩)
    (Cert.KernelIdeal.Result.run (F := Ideal) m ρ)

end Cert.KernelIdeal.Value

end
-- ==== Proof.lean ====
/-
  The certificate of a graph-convolution layer: `relu (Â · (x · w) + b)` with `Â` the symmetrically normalised adjacency of
  the graph with self loops, `Â[n, s] = d[n] · d[s]` per edge `s → n`, `d` the inverse square roots of the degrees.

  The reference scales every edge's message `h[s]` (`h = x · w`) by `d[s] · d[n]` and scatter-adds the messages at the targets.
  The kernel program scales the rows of `h` by `d` in a first kernel, gathers and scatter-adds the scaled rows on the host, and
  scales the sums by `d[n]`, adds the bias and clamps at zero in a second kernel. On the extended reals the two agree because
  the factor pulled out of each sum, `d[n]`, is a non-negative real (Proof/Bridge.lean, Proof/BridgeTop.lean); no property of
  the float inputs is used.

  The three frames: the two kernel programs' are the generated frames; the reference's is its run with the result dropped.
  The idealization's ledger is empty. The value claim puts the kernel program's run (Proof/KernelValue.lean: the generated
  frame's run read at the result buffer, the two kernels as whole-array functions — Proof/Region0.lean, Proof/Region1.lean —,
  the host operations read back — Proof/HostK.lean) beside the reference's run (Proof/RefRunP.lean, Proof/RefReadP.lean).
-/
import proofs.«125633_j60000693125427_2_alg».proof.Defs
import proofs.«125633_j60000693125427_2_alg».proof.Proof.Gen.Kernel
import proofs.«125633_j60000693125427_2_alg».proof.Proof.Gen.Kernel.Frame
import proofs.«125633_j60000693125427_2_alg».proof.Proof.Gen.KernelIdeal
import proofs.«125633_j60000693125427_2_alg».proof.Proof.Gen.KernelIdeal.Frame
import proofs.«125633_j60000693125427_2_alg».proof.Proof.Gen.ReferenceIdeal
import proofs.«125633_j60000693125427_2_alg».proof.Proof.Gen.Pre_finite_inputs
import proofs.«125633_j60000693125427_2_alg».proof.Proof.RefRunP
import proofs.«125633_j60000693125427_2_alg».proof.Proof.RefReadP
import proofs.«125633_j60000693125427_2_alg».proof.Proof.BridgeTop
import proofs.«125633_j60000693125427_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both programs, from memories agreeing on the arguments, end with the result array at the reference's last stage of the
    argument arrays: the kernel program's function is that stage (`Bridge.kernelValue_eq`). -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v49_eq, (hagree c).1, (hagree c).2.1, (hagree c).2.2.1, (hagree c).2.2.2,
    Cert.Bridge.kernelValue_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
